-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S8192x4096 .f32) (main_arg1 : FVec F S4096x4096 .f32) (main_arg2 : FVec F S4096 .f32) (main_arg3 : FVec F S_ .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1x1 : Shape := ⟨2, ![1, 1]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .bf16⟩
  | .hbm, ⟨5, _⟩ => ⟨S4096x4096, .bf16⟩
  | .hbm, ⟨6, _⟩ => ⟨S1x4096, .f32⟩
  | .hbm, ⟨7, _⟩ => ⟨S1x1, .f32⟩
  | .hbm, ⟨8, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S2048x1024, .f32⟩
  | .local _ .vmem, ⟨8, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  shapeCasts_S4096_S1x4096 : S4096.ShapeCasts S1x4096
  shapeCasts_S_S1x1 : S_.ShapeCasts S1x1
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S2048x1024_S2048x1024 : S2048x1024.ShapeCasts S2048x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.RefEntry.lean ====
/-
  The reference's result, entry by entry. It scales the weight matrix by the scalar first, contracts the last axes
  of the activations and the scaled weights, and adds the bias vector along the rows; so entry (r, o) is
      (Σ_k X(r, k) · (W(o, k) · S)) + B(o),
  the sum over the 4096 positions of the contracted axis.
-/
import proofs.«135000_j52793738002579_2_alg».proof.Proof.Gen.ReferenceIdeal.Read
import Idealize.ShloMosaic.Lib.ValueIdx
import Idealize.ShloMosaic.PureOps.Ideal.Laws

noncomputable section

open scoped BigOperators

namespace Cert.ReferenceIdeal.RefEntry

open Cert.ReferenceIdeal Cert.ReferenceIdeal.Gen Cert.ReferenceIdeal.Read Idealize.ShloMosaic Idealize.ShloMosaic.ValueIdx

/-- Entry (r, o) of the reference's result: the contraction of row r of the activations with row o of the weights,
    each weight multiplied by the scalar first, plus entry o of the bias. -/
theorem ref_apply (X : FVec Ideal S8192x4096 .f32) (W : FVec Ideal S4096x4096 .f32) (B : FVec Ideal S4096 .f32)
    (S : FVec Ideal S_ .f32) (r : Fin 8192) (o : Fin 4096) :
    val_main_v5 (F := Ideal) X W B S (ix2 r o)
      = (∑ k : Fin 4096, X (ix2 r k) * (W (ix2 o k) * S ix0)) + B (ix1 o) := by
  have el : ∀ k : Fin 4096, lidx_main_v2 (ix2 r o) k = ix2 r k := fun k =>
    funext fun a => Fin.ext (by match a with | ⟨0, _⟩ => rfl | ⟨1, _⟩ => rfl)
  have er : ∀ k : Fin 4096, ridx_main_v2 (ix2 r o) k = ix2 o k := fun k =>
    funext fun a => Fin.ext (by match a with | ⟨0, _⟩ => rfl | ⟨1, _⟩ => rfl)
  have eb : idx_main_v3 (idx_main_v4 (ix2 r o)) = ix1 o :=
    funext fun a => Fin.ext (by match a with | ⟨0, _⟩ => rfl)
  have es : ∀ j : S4096x4096.Idx, idx_main_v0 j = ix0 := fun j => funext fun a => a.elim0
  rw [val_main_v5_apply, val_main_v2_apply, val_main_v4_apply, val_main_v3_apply, eb]
  simp only [val_main_v1_apply, val_main_v0_apply, el, er, es, Ideal.addf_def, Ideal.mulf_def]

end Cert.ReferenceIdeal.RefEntry

end
-- ==== Proof.FiniteEntries.lean ====
/-
  What the precondition says, entry by entry: each of its four conjuncts is "every entry of one argument has
  absolute value below +∞", so every entry of every argument is a real number (neither infinity).
-/
import proofs.«135000_j52793738002579_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Entries

open Cert.Pre_finite_inputs Idealize.ShloMosaic Idealize.ShloMosaic.ValueIdx

instance : Subsingleton S_.Idx := ⟨fun a b => funext fun d => d.elim0⟩

/-- An extended real whose absolute value max(x, −x) is below the word of +∞ is a real number. -/
theorem real_of_abs_lt_inf (x : EReal)
    (h : Ideal.cmp .olt (max x (-x)) (Ideal.ofBits .f32 0x7F800000#32) = 1#1) : ∃ a : ℝ, x = (a : EReal) := by
  have hinf : Ideal.ofBits .f32 0x7F800000#32 = ⊤ := by simp [Ideal.ofBits, Ideal.ieee]
  rw [hinf] at h
  induction x using EReal.rec with
  | bot => simp [Ideal.cmp] at h
  | coe a => exact ⟨a, rfl⟩
  | top => simp [Ideal.cmp] at h

variable [Facts]
open Facts

/-- Under the precondition every entry of the activations, of the weights and of the bias, and the scalar, is a real
    number. -/
theorem entries_real (X : FVec Ideal S8192x4096 .f32) (W : FVec Ideal S4096x4096 .f32) (B : FVec Ideal S4096 .f32)
    (S : FVec Ideal S_ .f32) (h : fn (F := Ideal) X W B S = fun _ => 1#1) :
    (∀ i, ∃ a : ℝ, X i = (a : EReal)) ∧ (∀ i, ∃ a : ℝ, W i = (a : EReal)) ∧ (∀ i, ∃ a : ℝ, B i = (a : EReal))
      ∧ (∀ i, ∃ a : ℝ, S i = (a : EReal)) := by
  have h0 := congrFun h ix0
  dsimp only [fn, fn_part1] at h0
  obtain ⟨h012, hS⟩ := IntOp.andi_eq_one.1 h0
  obtain ⟨h01, hB⟩ := IntOp.andi_eq_one.1 h012
  obtain ⟨hX, hW⟩ := IntOp.andi_eq_one.1 h01
  refine ⟨fun i => ?_, fun i => ?_, fun i => ?_, fun i => ?_⟩
  · have e := Host.reduce_andi_all _ _ _ _ _ hX i
    rw [cmpf_apply, broadcastInDim_apply _ _ _ i ix0 (fun a => a.elim0)] at e
    exact real_of_abs_lt_inf (X i) e
  · have e := Host.reduce_andi_all _ _ _ _ _ hW i
    rw [cmpf_apply, broadcastInDim_apply _ _ _ i ix0 (fun a => a.elim0)] at e
    exact real_of_abs_lt_inf (W i) e
  · have e := Host.reduce_andi_all _ _ _ _ _ hB i
    rw [cmpf_apply, broadcastInDim_apply _ _ _ i ix0 (fun a => a.elim0)] at e
    exact real_of_abs_lt_inf (B i) e
  · have e := Host.reduce_andi_all _ _ _ _ _ hS i
    rw [cmpf_apply] at e
    exact real_of_abs_lt_inf (S i) e

end Cert.Pre_finite_inputs.Entries

end
-- ==== Proof.InputBlocks.lean ====
/-
  What the kernel's body loads at a grid point, in terms of the argument arrays.

  The grid has 4 × 4 × 8 points, numbered row-major: point t has row tile t / 32, column tile (t / 8) mod 4 and
  contraction tile t mod 8. Before the region the host converts the activations and the weights to a narrower format
  (the identity on extended reals) and reshapes the bias to one row and the scalar to a 1×1 array. So at point t
    * the activations' block (2048 × 512) at (p, q) is X(2048·(t/32) + p, 512·(t mod 8) + q);
    * the weights' block (1024 × 512) at (o', q) is W(1024·((t/8) mod 4) + o', 512·(t mod 8) + q);
    * the bias block (1 × 1024) at (0, o') is B(1024·((t/8) mod 4) + o');
    * the scalar's block (1 × 1) at (0, 0) is S.
-/
import proofs.«135000_j52793738002579_2_alg».proof.Proof.Gen.KernelIdeal.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The block indices of the four input windows at point t, in closed form (decided over the 128 points). -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = 0 ∧ win0_3.index t (1 : Fin 2) = 0 :=
  (by decide +kernel : ∀ t : Fin grid0.N, _)

/-! ## The arrays the region finds: the host's conversions and reshapes of the arguments -/

theorem acts_entry (c : Dev nD) (i : S8192x4096.Idx) :
    (V m c main_v0 : FVec Ideal S8192x4096 .bf16) i = m ((c : Thread nD τ).loc main_arg0) i := by
  have e : @Eq (FVec Ideal S8192x4096 .bf16) (V m c main_v0)
      (truncf .bf16 (m ((c : Thread nD τ).loc main_arg0) : FVec Ideal S8192x4096 .f32) bitsLt_bf16_f32) := by
    dsimp only [V, hostOps0]; after_results
  exact congrFun e i

theorem weights_entry (c : Dev nD) (i : S4096x4096.Idx) :
    (V m c main_v1 : FVec Ideal S4096x4096 .bf16) i = m ((c : Thread nD τ).loc main_arg1) i := by
  have e : @Eq (FVec Ideal S4096x4096 .bf16) (V m c main_v1)
      (truncf .bf16 (m ((c : Thread nD τ).loc main_arg1) : FVec Ideal S4096x4096 .f32) bitsLt_bf16_f32) := by
    dsimp only [V, hostOps0]; after_results
  exact congrFun e i

theorem bias_entry (c : Dev nD) :
    (V m c main_v2 : FVec Ideal S1x4096 .f32)
      = shapeCast S1x4096 (m ((c : Thread nD τ).loc main_arg2) : FVec Ideal S4096 .f32) shapeCasts_S4096_S1x4096 := by
  dsimp only [V, hostOps0]; after_results; rfl

theorem scale_entry (c : Dev nD) :
    (V m c main_v3 : FVec Ideal S1x1 .f32)
      = shapeCast S1x1 (m ((c : Thread nD τ).loc main_arg3) : FVec Ideal S_ .f32) shapeCasts_S_S1x1 := by
  dsimp only [V, hostOps0]; after_results; rfl

/-! ## The blocks at a point -/

/-- The activations' block at point t, entry (p, q): row 2048·(t/32) + p, column 512·(t mod 8) + q of the argument. -/
theorem acts_block (c : Dev nD) (t : Fin cfg0.N) (p : Fin 2048) (q : Fin 512) (r : Fin 8192) (k : Fin 4096)
    (hr : r.val = 2048 * (t.val / 32) + p.val) (hk : k.val = 512 * (t.val % 8) + q.val) :
    (iblk m c 0 t : Vec Ideal S2048x512 .bf16) (ix2 p q) = m ((c : Thread nD τ).loc main_arg0) (ix2 r k) := by
  obtain ⟨e0, e1, -⟩ := idx_facts t
  show (V m c main_v0 : FVec Ideal S8192x4096 .bf16) (((cfg0.win 0).blk t).view.emb (ix2 p q)) = _
  rw [acts_entry]
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 512 + 1 * q.val = k.val; rw [e1, hk]; omega

/-- The weights' block at point t, entry (o', q): row 1024·((t/8) mod 4) + o', column 512·(t mod 8) + q. -/
theorem weights_block (c : Dev nD) (t : Fin cfg0.N) (o' : Fin 1024) (q : Fin 512) (o : Fin 4096) (k : Fin 4096)
    (ho : o.val = 1024 * (t.val / 8 % 4) + o'.val) (hk : k.val = 512 * (t.val % 8) + q.val) :
    (iblk m c 1 t : Vec Ideal S1024x512 .bf16) (ix2 o' q) = m ((c : Thread nD τ).loc main_arg1) (ix2 o k) := by
  obtain ⟨-, -, e0, e1, -⟩ := idx_facts t
  show (V m c main_v1 : FVec Ideal S4096x4096 .bf16) (((cfg0.win 1).blk t).view.emb (ix2 o' q)) = _
  rw [weights_entry]
  refine congrArg _ (funext fun a => Fin.ext ?_)
  match a with
  | ⟨0, _⟩ => show win0_1.index t (0 : Fin 2) * 1024 + 1 * o'.val = o.val; rw [e0, ho]; omega
  | ⟨1, _⟩ => show win0_1.index t (1 : Fin 2) * 512 + 1 * q.val = k.val; rw [e1, hk]; omega

/-- The bias block at point t, entry (0, o'): entry 1024·((t/8) mod 4) + o' of the bias vector. -/
theorem bias_block (c : Dev nD) (t : Fin cfg0.N) (u : Fin 1) (o' : Fin 1024) (o : Fin 4096)
    (ho : o.val = 1024 * (t.val / 8 % 4) + o'.val) :
    (iblk m c 2 t : Vec Ideal S1x1024 .f32) (ix2 u o') = m ((c : Thread nD τ).loc main_arg2) (ix1 o) := by
  obtain ⟨-, -, -, -, e0, e1, -⟩ := idx_facts t
  show (V m c main_v2 : FVec Ideal S1x4096 .f32) (((cfg0.win 2).blk t).view.emb (ix2 u o')) = _
  rw [bias_entry]
  have hu : u.val = 0 := by omega
  have e : ((cfg0.win 2).blk t).view.emb (ix2 u o') = ix2 (0 : Fin 1) o := by
    funext a; apply Fin.ext
    match a with
    | ⟨0, _⟩ => show win0_2.index t (0 : Fin 2) * 1 + 1 * u.val = 0; rw [e0, hu]
    | ⟨1, _⟩ => show win0_2.index t (1 : Fin 2) * 1024 + 1 * o'.val = o.val; rw [e1, ho]; omega
  rw [e]
  exact shapeCast_a_1a_apply _ _ _ _

/-- The scalar's block at any point, its one entry: the scalar argument. -/
theorem scale_block (c : Dev nD) (t : Fin cfg0.N) (j : S1x1.Idx) :
    (iblk m c 3 t : Vec Ideal S1x1 .f32) j = m ((c : Thread nD τ).loc main_arg3) ix0 := by
  show (V m c main_v3 : FVec Ideal S1x1 .f32) (((cfg0.win 3).blk t).view.emb j) = _
  rw [scale_entry]
  refine shapeCast_apply _ _ _ _ ?_
  have h0 := (((cfg0.win 3).blk t).view.emb j 0).isLt
  have h1 := (((cfg0.win 3).blk t).view.emb j 1).isLt
  rw [Shape.rowMajor_val_two]
  show 0 = (((cfg0.win 3).blk t).view.emb j 0).val * 1 + (((cfg0.win 3).blk t).view.emb j 1).val
  have h0' : (((cfg0.win 3).blk t).view.emb j 0).val < 1 := h0
  have h1' : (((cfg0.win 3).blk t).view.emb j 1).val < 1 := h1
  omega

end Cert.KernelIdeal.Blocks

end
-- ==== Proof.LibMatmulNT.lean ====
/-
  The product of an M×K matrix with the transpose of an N×K matrix on the extended reals, and the hardware matrix
  product with the dimension numbers "contract axis 1 of both operands" read at one entry: into a zero accumulator it
  is the plain sum over the K contracted positions of the products of the two rows' entries.
-/
import Idealize.ShloMosaic.Lib.ValueIdx
import Idealize.ShloMosaic.PureOps.Ideal.Laws

noncomputable section

open scoped BigOperators

namespace Cert.Lib.MatmulNT

open Idealize.ShloMosaic Idealize.ShloMosaic.ValueIdx

/-- `x · wᵀ`: entry (r, n) is the sum over k of `x (r, k) * w (n, k)`. -/
def mulNT {M N K : Nat} (x : (⟨2, ![M, K]⟩ : Shape).Idx → EReal) (w : (⟨2, ![N, K]⟩ : Shape).Idx → EReal) :
    (⟨2, ![M, N]⟩ : Shape).Idx → EReal :=
  fun i => ∑ c : Fin K, x (ix2 (i 0 : Fin M) c) * w (ix2 (i 1 : Fin N) c)

theorem mulNT_apply {M N K : Nat} (x : (⟨2, ![M, K]⟩ : Shape).Idx → EReal) (w : (⟨2, ![N, K]⟩ : Shape).Idx → EReal)
    (a : Fin M) (b : Fin N) : mulNT x w (ix2 a b) = ∑ c : Fin K, x (ix2 a c) * w (ix2 b c) := rfl

/-- A matrix product contracting axis 1 of an M×K operand with axis 1 of an N×K operand, accumulated into the zero
    splat, read at entry (a, b) at the ideal values: the contraction index has one axis of extent K, and at position c
    the left operand is read at (a, c), the right one at (b, c). -/
theorem matmul_zero_nt_apply {M N K : Nat} {φ₁ φ₂ : FTy}
    (wf : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    FloatOps.matmul (⟨[1], [1], [0], [0], [], [], wf⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [Ideal.matmul_constant_zero_apply,
    ← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun c _ => ?_
  have hc := contrEquiv1_symm_val
    (⟨[1], [1], [0], [0], [], [], wf⟩ : DotDims ⟨2, ![M, K]⟩ ⟨2, ![N, K]⟩ ⟨2, ![M, N]⟩) K rfl rfl c
  have hl : (⟨[1], [1], [0], [0], [], [], wf⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], wf⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.Lib.MatmulNT

end
-- ==== Proof.BodyEntries.lean ====
/-
  The body's three stored values, entry by entry, on the extended reals.

  * The reset value is zero everywhere.
  * The accumulation step adds to the block's previous entry (p, o) the contraction, over the 512 positions of the
    point's tile, of row p of the activations' block with row o of the weights' block (the matrix product contracts
    the last axis of both and starts from a zero accumulator).
  * The last step of a run multiplies the accumulated entry by the scalar and adds entry o of the bias row.
-/
import proofs.«135000_j52793738002579_2_alg».proof.Proof.Gen.KernelIdeal.Skeleton
import proofs.«135000_j52793738002579_2_alg».proof.Proof.LibMatmulNT
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The value the first point of a run stores before accumulating: zero at every entry. -/
theorem reset_entry (j : S2048x1024.Idx) : (k0_pay1 (F := Ideal)) j = 0 := by
  unfold k0_pay1
  show Ideal.ofBits .f32 0x00000000#32 = 0
  exact Ideal.ofBits_zero_f32

/-- One accumulation: the previous entry plus the tile's contraction of the two blocks' rows. -/
theorem accumulate_entry (x0 : Vec Ideal S2048x512 .bf16) (x1 : Vec Ideal S1024x512 .bf16)
    (acc : Vec Ideal S2048x1024 .f32) (p : Fin 2048) (o : Fin 1024) :
    k0_pay2 x0 x1 acc (ix2 p o) = acc (ix2 p o) + ∑ q : Fin 512, x0 (ix2 p q) * x1 (ix2 o q) := by
  unfold k0_pay2
  simp only [shapeCast_self]
  rw [addf_apply]
  congr 1
  exact Cert.Lib.MatmulNT.matmul_zero_nt_apply (M := 2048) (N := 1024) (K := 512) _ none x0 x1 p o

/-- The epilogue: the accumulated entry times the scalar, plus the bias row's entry in that column. -/
theorem epilogue_entry (acc : Vec Ideal S2048x1024 .f32) (s : Vec Ideal S1x1 .f32) (b : Vec Ideal S1x1024 .f32)
    (p : Fin 2048) (o : Fin 1024) :
    k0_pay3 acc s b (ix2 p o)
      = acc (ix2 p o) * extractAt ![0, 0] s inpos_S1x1_p0_0 + b (ix2 (0 : Fin 1) o) := by
  unfold k0_pay3
  simp only [shapeCast_self]
  rw [addf_apply, mulf_apply, broadcast_apply]
  congr 1
  refine broadcastTo_apply _ _ _ _ (fun a => ?_)
  match a with
  | ⟨0, _⟩ => show 0 = if (1 : Nat) = 1 then 0 else _; rw [if_pos rfl]
  | ⟨1, _⟩ => show o.val = if (1024 : Nat) = 1 then 0 else o.val; rw [if_neg (by decide)]

end Cert.KernelIdeal.Body

end
-- ==== Proof.KernelEntry.lean ====
/-
  The output block after a run, entry by entry.

  The output block of row tile a and column tile b is built over the run of the eight grid points 8·R … 8·R + 7,
  R = 4·a + b, one per tile of the contracted axis: the first point stores zero and adds its tile's contraction, each
  later point adds its own, and the last one then multiplies by the scalar and adds the bias row. So after the run
  entry (p, o') of the block holds
      (0 + Σ_{s<8} (the addend of point 8·R + s at (p, o'))) · S + (the bias block of the last point at (0, o')).
-/
import proofs.«135000_j52793738002579_2_alg».proof.Proof.Gen.KernelIdeal.Value
import proofs.«135000_j52793738002579_2_alg».proof.Proof.InputBlocks
import proofs.«135000_j52793738002579_2_alg».proof.Proof.BodyEntries

noncomputable section

open scoped BigOperators

namespace Cert.KernelIdeal.Entry

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The four input blocks at a point, as functions into the extended reals. -/
abbrev actsBlk (c : Dev nD) (t : Fin cfg0.N) : S2048x512.Idx → EReal := iblk m c 0 t
abbrev wtsBlk (c : Dev nD) (t : Fin cfg0.N) : S1024x512.Idx → EReal := iblk m c 1 t
abbrev biasBlk (c : Dev nD) (t : Fin cfg0.N) : S1x1024.Idx → EReal := iblk m c 2 t
abbrev scaleBlk (c : Dev nD) (t : Fin cfg0.N) : S1x1.Idx → EReal := iblk m c 3 t

/-- What point n adds to entry j of the output block: the contraction over its tile of the two input blocks' rows
    (zero past the grid, where it is never used). -/
def tileTerm (c : Dev nD) (n : ℕ) (j : S2048x1024.Idx) : EReal :=
  if h : n < cfg0.N then
    ∑ q : Fin 512, actsBlk m c ⟨n, h⟩ (ix2 (j 0 : Fin 2048) q) * wtsBlk m c ⟨n, h⟩ (ix2 (j 1 : Fin 1024) q)
  else 0

theorem tileTerm_of_lt (c : Dev nD) (n : ℕ) (h : n < cfg0.N) (p : Fin 2048) (o : Fin 1024) :
    tileTerm m c n (ix2 p o) = ∑ q : Fin 512, actsBlk m c ⟨n, h⟩ (ix2 p q) * wtsBlk m c ⟨n, h⟩ (ix2 o q) := by
  unfold tileTerm
  rw [dif_pos h]

/-- The first point of a run leaves zero plus its addend. -/
theorem reset_apply (c : Dev nD) (b : ℕ) (h : b < cfg0.N) (j : S2048x1024.Idx) :
    Value.reset4 m c b h j = (fun _ => (0 : EReal)) j + tileTerm m c b j := by
  obtain ⟨p, o, rfl⟩ : ∃ (p : Fin 2048) (o : Fin 1024), j = ix2 p o := ⟨j 0, j 1, eq_ix2 j⟩
  rw [tileTerm_of_lt m c b h p o]
  unfold Value.reset4
  refine (Body.accumulate_entry (iblk m c 0 ⟨b, h⟩) (iblk m c 1 ⟨b, h⟩) (k0_pay1 (F := Ideal)) p o).trans ?_
  rw [Body.reset_entry]

/-- A point of a run that is neither its first nor its last adds its addend to what the point before left. -/
theorem step_apply (c : Dev nD) (R : ℕ) (n : ℕ) (h : n < cfg0.N) (acc : S2048x1024.Idx → EReal) (j : S2048x1024.Idx)
    (h1 : 8 * R < n) (h2 : n ≤ 8 * R + 6) :
    Value.step4 m c n h acc j = acc j + tileTerm m c n j := by
  obtain ⟨p, o, rfl⟩ : ∃ (p : Fin 2048) (o : Fin 1024), j = ix2 p o := ⟨j 0, j 1, eq_ix2 j⟩
  rw [tileTerm_of_lt m c n h p o]
  unfold Value.step4
  rw [if_pos ⟨by omega, by omega⟩]
  exact Body.accumulate_entry (iblk m c 0 ⟨n, h⟩) (iblk m c 1 ⟨n, h⟩) acc p o

/-- The last point of a run adds its addend, multiplies by the scalar's block and adds the bias block's entry. -/
theorem last_apply (c : Dev nD) (R : ℕ) (n : ℕ) (h : n < cfg0.N) (acc : S2048x1024.Idx → EReal) (p : Fin 2048)
    (o : Fin 1024) (hn : n = 8 * R + 7) :
    Value.step4 m c n h acc (ix2 p o)
      = (acc (ix2 p o) + tileTerm m c n (ix2 p o)) * m ((c : Thread nD τ).loc main_arg3) ix0
        + biasBlk m c ⟨n, h⟩ (ix2 (0 : Fin 1) o) := by
  rw [tileTerm_of_lt m c n h p o]
  unfold Value.step4
  rw [if_neg (by omega), if_pos ⟨by omega, by omega⟩]
  refine (Body.epilogue_entry (k0_pay2 (iblk m c 0 ⟨n, h⟩) (iblk m c 1 ⟨n, h⟩) acc) (iblk m c 3 ⟨n, h⟩)
    (iblk m c 2 ⟨n, h⟩) p o).trans ?_
  have sc : extractAt ![0, 0] (iblk m c 3 ⟨n, h⟩ : Vec Ideal S1x1 .f32) inpos_S1x1_p0_0
      = m ((c : Thread nD τ).loc main_arg3) ix0 := Blocks.scale_block m c ⟨n, h⟩ _
  rw [sc, Body.accumulate_entry (iblk m c 0 ⟨n, h⟩) (iblk m c 1 ⟨n, h⟩) acc p o]

/-- Entry (p, o) of the output block after the whole run of row-column tile R: the eight addends summed from zero, times
    the scalar, plus the bias block's entry in column o. -/
theorem fold_entry (c : Dev nD) (R : ℕ) (h : 8 * R + 7 < cfg0.N) (p : Fin 2048) (o : Fin 1024) :
    Pipeline.accAt (Value.reset4 m c) (Value.step4 m c) (8 * R) 7 h (ix2 p o)
      = (0 + ∑ s ∈ Finset.range 8, tileTerm m c (8 * R + s) (ix2 p o)) * m ((c : Thread nD τ).loc main_arg3) ix0
        + biasBlk m c ⟨8 * R + 7, h⟩ (ix2 (0 : Fin 1) o) := by
  have h6 : 8 * R + 6 < cfg0.N := by omega
  have six := Pipeline.accAt_add_apply (Value.reset4 m c) (Value.step4 m c) (fun _ => (0 : EReal)) (tileTerm m c)
    (8 * R) 6 (fun hb i => reset_apply m c (8 * R) hb i)
    (fun n hn acc i g1 g2 => step_apply m c R n hn acc i g1 g2) 6 (le_refl 6) h6 (ix2 p o)
  rw [Pipeline.accAt_succ]
  refine (last_apply m c R (8 * R + (6 + 1)) h _ p o rfl).trans ?_
  rw [six]
  show ((0 + ∑ s ∈ Finset.range 7, tileTerm m c (8 * R + s) (ix2 p o)) + tileTerm m c (8 * R + 7) (ix2 p o))
      * m ((c : Thread nD τ).loc main_arg3) ix0 + biasBlk m c ⟨8 * R + 7, h⟩ (ix2 (0 : Fin 1) o) = _
  rw [Finset.sum_range_succ _ 7, add_assoc]

end Cert.KernelIdeal.Entry

end
-- ==== Proof.LibScaledTiles.lean ====
/-
  Two facts about finite sums on the extended reals, for a contraction axis cut into equal tiles.

  * A sum over an axis of n·K positions is the sum over the n tiles of the sums inside each tile, position
    K·s + q of the axis being position q of tile s.
  * For real numbers a, b and a real scale σ, read as extended reals, multiplying the total of the tiles'
    sums of products a·b by σ gives the sum of the products a·(b·σ): on the reals this is distributivity, and a
    finite sum or product of reals read as extended reals is the extended real of the real sum or product.
    (On the extended reals alone the law fails: with an infinite total and σ = 0 the two sides differ.)
-/
import Idealize.ShloMosaic.PureOps.Ideal.Laws

noncomputable section

open scoped BigOperators

namespace Cert.Lib.ScaledTiles

/-- A finite sum of reals, read as an extended real, is the sum of the terms read as extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Position q of tile s, on an axis of n·K positions. -/
def tilePos {n K : Nat} (s : Fin n) (q : Fin K) : Fin (n * K) :=
  ⟨K * s.val + q.val, by
    have hs := s.isLt; have hq := q.isLt
    calc K * s.val + q.val < K * s.val + K := by omega
      _ = K * (s.val + 1) := by ring
      _ ≤ K * n := Nat.mul_le_mul_left K hs
      _ = n * K := Nat.mul_comm K n⟩

theorem tilePos_val {n K : Nat} (s : Fin n) (q : Fin K) : (tilePos s q).val = K * s.val + q.val := rfl

/-- A sum over n·K positions, tile by tile. -/
theorem sum_tiles {β : Type*} [AddCommMonoid β] {n K : Nat} (f : Fin (n * K) → β) :
    ∑ k : Fin (n * K), f k = ∑ s : Fin n, ∑ q : Fin K, f (tilePos s q) := by
  rw [← Equiv.sum_comp finProdFinEquiv f, Fintype.sum_prod_type]
  refine Finset.sum_congr rfl fun s _ => Finset.sum_congr rfl fun q _ => ?_
  congr 1
  apply Fin.ext
  show q.val + K * s.val = K * s.val + q.val
  omega

/-- The total over tiles of the sums of products a·b, started from zero and then multiplied by σ, is the sum of the
    products a·(b·σ), for real a, b, σ read as extended reals. -/
theorem scaled_total_eq {κ ι : Type*} [Fintype κ] [Fintype ι] (a b : κ → ι → ℝ) (σ : ℝ) :
    (0 + ∑ s : κ, ∑ q : ι, ((a s q : ℝ) : EReal) * ((b s q : ℝ) : EReal)) * (σ : EReal)
      = ∑ s : κ, ∑ q : ι, ((a s q : ℝ) : EReal) * (((b s q : ℝ) : EReal) * (σ : EReal)) := by
  simp only [← EReal.coe_mul, ← coe_sum, zero_add]
  congr 1
  rw [Finset.sum_mul]
  refine Finset.sum_congr rfl fun s _ => ?_
  rw [Finset.sum_mul]
  refine Finset.sum_congr rfl fun q _ => ?_
  ring

end Cert.Lib.ScaledTiles

end
-- ==== Proof.ResultEntry.lean ====
/-
  The kernel's result, entry by entry, in terms of the argument arrays.

  Entry (r, o) of the result lies in the output block of row tile r / 2048 and column tile o / 1024, at place
  (r mod 2048, o mod 1024); that block's run is R = 4·(r / 2048) + o / 1024, its s-th point is 8·R + s, whose
  contraction tile is s. Reading each point's input blocks in the argument arrays, entry (r, o) is
      (0 + Σ_{s<8} Σ_{q<512} X(r, 512·s + q) · W(o, 512·s + q)) · S + B(o).
-/
import proofs.«135000_j52793738002579_2_alg».proof.Proof.KernelEntry
import proofs.«135000_j52793738002579_2_alg».proof.Proof.LibScaledTiles

noncomputable section

open scoped BigOperators

namespace Cert.KernelIdeal.Entry

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The four argument arrays on one device, as functions into the extended reals. -/
abbrev acts (c : Dev nD) : S8192x4096.Idx → EReal := m ((c : Thread nD τ).loc main_arg0)
abbrev wts (c : Dev nD) : S4096x4096.Idx → EReal := m ((c : Thread nD τ).loc main_arg1)
abbrev bias (c : Dev nD) : S4096.Idx → EReal := m ((c : Thread nD τ).loc main_arg2)
abbrev scale (c : Dev nD) : S_.Idx → EReal := m ((c : Thread nD τ).loc main_arg3)

/-- Position q of tile s on the contracted axis of 4096 = 8·512 positions. -/
def kpos (s : Fin 8) (q : Fin 512) : Fin 4096 := Cert.Lib.ScaledTiles.tilePos (n := 8) (K := 512) s q

theorem kpos_val (s : Fin 8) (q : Fin 512) : (kpos s q).val = 512 * s.val + q.val := rfl

/-- A sum over the contracted axis, tile by tile. -/
theorem sum_kpos (f : Fin 4096 → EReal) : ∑ k : Fin 4096, f k = ∑ s : Fin 8, ∑ q : Fin 512, f (kpos s q) :=
  Cert.Lib.ScaledTiles.sum_tiles (n := 8) (K := 512) f

/-- Entry (r, o) of the array the kernel's run leaves: the eight tiles' contractions of row r of the activations with
    row o of the weights, summed from zero, times the scalar, plus entry o of the bias. -/
theorem result_entry (c : Dev nD) (r : Fin 8192) (o : Fin 4096) :
    Value.G4 m c (ix2 r o)
      = (0 + ∑ s : Fin 8, ∑ q : Fin 512, acts m c (ix2 r (kpos s q)) * wts m c (ix2 o (kpos s q))) * scale m c ix0
        + bias m c (ix1 o) := by
  have hN : cfg0.N = 128 := N_0
  have hr := r.isLt
  have ho := o.isLt
  have hR : Value.run4Of (ix2 r o) = 4 * (r.val / 2048) + o.val / 1024 := by
    show 4 * (r.val / 2048 - 0) + 1 * (o.val / 1024 - 0) = _
    omega
  have hlt : 8 * Value.run4Of (ix2 r o) + 7 < cfg0.N := by rw [hR, hN]; omega
  have hloc : Value.loc4Of (ix2 r o) = ix2 (⟨r.val % 2048, Nat.mod_lt _ (by decide)⟩ : Fin 2048)
      (⟨o.val % 1024, Nat.mod_lt _ (by decide)⟩ : Fin 1024) :=
    funext fun a => Fin.ext (by match a with | ⟨0, _⟩ => rfl | ⟨1, _⟩ => rfl)
  unfold Value.G4
  rw [dif_pos hlt, hloc, fold_entry m c (Value.run4Of (ix2 r o)) hlt _ _]
  have hb : biasBlk m c ⟨8 * Value.run4Of (ix2 r o) + 7, hlt⟩
        (ix2 (0 : Fin 1) (⟨o.val % 1024, Nat.mod_lt _ (by decide)⟩ : Fin 1024))
      = bias m c (ix1 o) :=
    Blocks.bias_block m c ⟨8 * Value.run4Of (ix2 r o) + 7, hlt⟩ 0 _ o (by
      show o.val = 1024 * ((8 * Value.run4Of (ix2 r o) + 7) / 8 % 4) + o.val % 1024
      rw [hR]; omega)
  have hsum : ∀ s : Fin 8, tileTerm m c (8 * Value.run4Of (ix2 r o) + s.val)
        (ix2 (⟨r.val % 2048, Nat.mod_lt _ (by decide)⟩ : Fin 2048) (⟨o.val % 1024, Nat.mod_lt _ (by decide)⟩ : Fin 1024))
      = ∑ q : Fin 512, acts m c (ix2 r (kpos s q)) * wts m c (ix2 o (kpos s q)) := by
    intro s
    have hs := s.isLt
    have hn : 8 * Value.run4Of (ix2 r o) + s.val < cfg0.N := by omega
    rw [tileTerm_of_lt m c _ hn]
    refine Finset.sum_congr rfl fun q _ => ?_
    have hq := q.isLt
    have hx : actsBlk m c ⟨8 * Value.run4Of (ix2 r o) + s.val, hn⟩
          (ix2 (⟨r.val % 2048, Nat.mod_lt _ (by decide)⟩ : Fin 2048) q)
        = acts m c (ix2 r (kpos s q)) :=
      Blocks.acts_block m c ⟨8 * Value.run4Of (ix2 r o) + s.val, hn⟩ _ q r (kpos s q)
        (by show r.val = 2048 * ((8 * Value.run4Of (ix2 r o) + s.val) / 32) + r.val % 2048
            rw [hR]; omega)
        (by show 512 * s.val + q.val = 512 * ((8 * Value.run4Of (ix2 r o) + s.val) % 8) + q.val
            rw [hR]; omega)
    have hw : wtsBlk m c ⟨8 * Value.run4Of (ix2 r o) + s.val, hn⟩
          (ix2 (⟨o.val % 1024, Nat.mod_lt _ (by decide)⟩ : Fin 1024) q)
        = wts m c (ix2 o (kpos s q)) :=
      Blocks.weights_block m c ⟨8 * Value.run4Of (ix2 r o) + s.val, hn⟩ _ q o (kpos s q)
        (by show o.val = 1024 * ((8 * Value.run4Of (ix2 r o) + s.val) / 8 % 4) + o.val % 1024
            rw [hR]; omega)
        (by show 512 * s.val + q.val = 512 * ((8 * Value.run4Of (ix2 r o) + s.val) % 8) + q.val
            rw [hR]; omega)
    rw [hx, hw]
  rw [hb, Finset.sum_range, Finset.sum_congr rfl (fun s _ => hsum s)]

end Cert.KernelIdeal.Entry

end
-- ==== Proof.lean ====
/-
  A dequantized linear layer: the kernel against its reference, on the extended reals.

  With X the 8192 × 4096 activations, W the 4096 × 4096 weight codes, S the scalar scale and B the bias vector, the
  reference scales the weights first and contracts afterwards: entry (r, o) of its result is
      Σ_k X(r, k) · (W(o, k) · S) + B(o)                                   (k over the 4096 contracted positions).
  The kernel tiles the result 4 × 4 and the contracted axis into 8 tiles of 512; for each output block it runs through
  the 8 tiles, starting from zero and adding each tile's contraction of the unscaled operands, and only then
  multiplies by S and adds the bias row: entry (r, o) of its result is
      (0 + Σ_{s<8} Σ_{q<512} X(r, 512·s + q) · W(o, 512·s + q)) · S + B(o).
  The two agree when every entry is a real number, which the precondition says: position 512·s + q runs over the
  contracted axis exactly once, and on the reals (Σ a·b)·σ = Σ a·(b·σ). (For infinite entries the law fails, so the
  precondition is used.)

  The kernel's run and its result array as the fold over each run of grid points, and the reference's run and its
  result term, are the imported generated modules; the frames are those runs with the result dropped.
-/
import proofs.«135000_j52793738002579_2_alg».proof.Defs
import proofs.«135000_j52793738002579_2_alg».proof.Proof.Gen.Kernel.Frame
import proofs.«135000_j52793738002579_2_alg».proof.Proof.Gen.KernelIdeal.Value
import proofs.«135000_j52793738002579_2_alg».proof.Proof.Gen.Pre_finite_inputs
import proofs.«135000_j52793738002579_2_alg».proof.Proof.Gen.ReferenceIdeal.Run
import proofs.«135000_j52793738002579_2_alg».proof.Proof.RefEntry
import proofs.«135000_j52793738002579_2_alg».proof.Proof.FiniteEntries
import proofs.«135000_j52793738002579_2_alg».proof.Proof.ResultEntry
import Idealize.ShloMosaic.Adequacy
import Idealize.ShloMosaic.Init

noncomputable section

namespace Cert.Proof

open Idealize.ShloMosaic Idealize.SL.Sem Idealize.ShloMosaic.ValueIdx

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Under the precondition the reference's result, as a function of the kernel's argument arrays, is the array the
    kernel's run leaves: entry by entry, both are the contraction of the activations' row with the weights' row —
    scaled before the sum on one side, after it on the other — plus the bias entry, and all the numbers are real. -/
theorem results_agree (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1) :
    Cert.ReferenceIdeal.Read.val_main_v5 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      = Cert.KernelIdeal.Value.G4 m c := by
  funext i
  obtain ⟨r, o, rfl⟩ : ∃ (r : Fin 8192) (o : Fin 4096), i = ix2 r o := ⟨i 0, i 1, eq_ix2 i⟩
  obtain ⟨hX, hW, -, hS⟩ := Cert.Pre_finite_inputs.Entries.entries_real _ _ _ _ hpre
  choose a ha using hX
  choose b hb using hW
  obtain ⟨σ, hσ⟩ := hS ix0
  rw [Cert.ReferenceIdeal.RefEntry.ref_apply, Cert.KernelIdeal.Entry.result_entry, Cert.KernelIdeal.Entry.sum_kpos]
  congr 1
  dsimp only [Cert.KernelIdeal.Entry.acts, Cert.KernelIdeal.Entry.wts, Cert.KernelIdeal.Entry.scale]
  simp only [ha, hb, hσ]
  exact (Cert.Lib.ScaledTiles.scaled_total_eq (fun s q => a (ix2 r (Cert.KernelIdeal.Entry.kpos s q)))
    (fun s q => b (ix2 o (Cert.KernelIdeal.Entry.kpos s q))) σ).symm

theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact results_agree m c (hpre c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
